-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S131072x128 : Shape := ⟨2, ![131072, 128]⟩
abbrev S2x8x128 : Shape := ⟨3, ![2, 8, 128]⟩
abbrev S8192x128 : Shape := ⟨2, ![8192, 128]⟩
abbrev S1x8x128 : Shape := ⟨3, ![1, 8, 128]⟩
abbrev S8x128 : Shape := ⟨2, ![8, 128]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S2x8x128, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_20 : BitVec 32 := 0#32
  let v47 : BitVec 1 := Scalar.cmpi .ne v46 c0_i32_20
  v47

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .i32 = 32 ∨ (Rect.block (s := S131072x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S4 : Shape := ⟨1, ![4]⟩
abbrev S_ : Shape := ⟨0, ![]⟩
abbrev S16777216x1 : Shape := ⟨2, ![16777216, 1]⟩

abbrev nBuf : Space → Nat
  | .hbm => 44
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S4, .f32⟩
  | .hbm, ⟨3, _⟩ => ⟨S16777216, .f32⟩
  | .hbm, ⟨4, _⟩ => ⟨S16777216, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S16777216, .i32⟩
  | .hbm, ⟨14, _⟩ => ⟨S_, .i32⟩
  | .hbm, ⟨15, _⟩ => ⟨S16777216, .i32⟩
  | .hbm, ⟨16, _⟩ => ⟨S16777216, .i1⟩
  | .hbm, ⟨17, _⟩ => ⟨S_, .i32⟩
  | .hbm, ⟨18, _⟩ => ⟨S16777216, .i32⟩
  | .hbm, ⟨19, _⟩ => ⟨S16777216, .i32⟩
  | .hbm, ⟨20, _⟩ => ⟨S16777216, .i32⟩
  | .hbm, ⟨21, _⟩ => ⟨S16777216x1, .i32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S_, .f32⟩
  | .hbm, ⟨26, _⟩ => ⟨S16777216, .f32⟩
  | .hbm, ⟨27, _⟩ => ⟨S16777216, .i1⟩
  | .hbm, ⟨28, _⟩ => ⟨S_, .f32⟩
  | .hbm, ⟨29, _⟩ => ⟨S16777216, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S16777216, .f32⟩
  | .hbm, ⟨34, _⟩ => ⟨S16777216, .f32⟩
  | .hbm, ⟨35, _⟩ => ⟨S_, .f32⟩
  | .hbm, ⟨36, _⟩ => ⟨S16777216, .f32⟩
  | .hbm, ⟨37, _⟩ => ⟨S16777216, .f32⟩
  | .hbm, ⟨38, _⟩ => ⟨S16777216, .f32⟩
  | .hbm, ⟨39, _⟩ => ⟨S16777216, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S16777216_S_d0 : S16777216.ReducesTo [0] S_
  h_S_ : 0 < S_.numel
  gather_S4_S16777216x1_S16777216_n_0_n_n_0_1_1_wf : GatherDims.WF S4 S16777216x1 S16777216 [] [0] [] [0] [] 1 ![1]

variable [Facts₀]

def gather_S4_S16777216x1_S16777216_n_0_n_n_0_1_1 : GatherDims S4 S16777216x1 S16777216 where
  offsetDims := []
  collapsedSliceDims := [0]
  operandBatchingDims := []
  startIndicesBatchingDims := []
  startIndexMap := [0]
  indexVectorDim := 1
  sliceSizes := ![1]
  wf := gather_S4_S16777216x1_S16777216_n_0_n_n_0_1_1_wf

class Facts : Prop extends Facts₀ where

variable [Facts]
-- ==== Proof.KPieces.lean ====
/-
  What one grid point leaves behind, case by case, as values.

  The accumulator tile after a point is the tile before it plus the point's scalar contribution
  (the sum over the block of the weighted elements) spread over the tile; at the first point of
  a core's run of eight the tile before is the zero tile; at the last point the output block is
  the accumulator tile itself, seen as a [1,8,128] block.
-/
import proofs.«125862_j80341658239294_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the accumulator becomes the old accumulator plus the block's contribution. -/
theorem sout_B (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i)
    (x0 : Vec F S8192x128 .f32) (x1 : Vec F S8192x128 .i32) (xs0 : Vec F S8x128 .f32) :
    sout0_B_0 c i arg2 harg2 arg3 harg3 arg4 harg4 arg5 harg5 hc0 hc1 x0 x1 xs0 = k0_pay1 (k0_pay4 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S8192x128) hz2, View.ld_unit_zero (S := S8x128) hz2]

/-- A last point: the accumulator is updated the same way. -/
theorem sout_C (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S8192x128 .f32) (x1 : Vec F S8192x128 .i32) (xs0 : Vec F S8x128 .f32) :
    sout0_C_0 c i arg2 harg2 arg3 harg3 arg4 harg4 arg5 harg5 hc0 hc1 x0 x1 xs0 = k0_pay1 (k0_pay4 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S8192x128) hz2, View.ld_unit_zero (S := S8x128) hz2]

/-- A first point: the accumulator is the zero tile plus the block's contribution. -/
theorem sout_A (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i)
    (x0 : Vec F S8192x128 .f32) (x1 : Vec F S8192x128 .i32) :
    sout0_A_0 c i arg2 harg2 arg3 harg3 arg4 harg4 arg5 harg5 hc0 hc1 x0 x1 = k0_pay1 (k0_pay4 x0 x1) (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread, View.ld_unit_zero (S := S8192x128) hz2, View.ld_unit_zero (S := S8x128) hz2]

/-- A last point: the output block is the updated accumulator, as a [1,8,128] block. -/
theorem out_C (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i)
    (x0 : Vec F S8192x128 .f32) (x1 : Vec F S8192x128 .i32) (xs0 : Vec F S8x128 .f32) :
    out0_C_2 c i arg2 harg2 arg3 harg3 arg4 harg4 arg5 harg5 hc0 hc1 x0 x1 xs0 = k0_pay2 (k0_pay1 (k0_pay4 x0 x1) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S8x128) _ hz2]
  simp only [View.readAt_eq_ld, harg2.read_unread, harg3.read_unread, harg5.read_unread, View.ld_unit_zero (S := S8192x128) hz2, View.ld_unit_zero (S := S8x128) hz2]

end Cert.KernelIdeal.KV

end
-- ==== Proof.Spec.lean ====
/-
  The two elementwise functions and the index arithmetic of the weighted Huber mean.

  For a prediction p (an extended real) and a label word t (read as the integer y):
  * the difference d = p - y, its absolute value a = max d (-d), the half h = 1/2;
  * `elemK`: m = min a h, the branch-free value m * (a - h * m), times the weight chosen by
    comparing the label clipped to [0, 3] against 3/2, 1/2 and 5/2;
  * `elemR`: the piecewise value ((h * d) * d where a < h, h * (a - 1/4) elsewhere), times the
    entry of the four-entry table at the label rounded, clipped to [0, 3] and converted back
    to an integer (wrapped into range and clamped as a table lookup does).
  The flat position of row r, lane l of block t of the 16 blocks of 8192 rows of 128 lanes is
  (t * 8192 + r) * 128 + l.
-/
import Idealize.ShloMosaic.PureOps.Ideal
import Idealize.ShloMosaic.Lib.ValueIdx

noncomputable section

namespace Cert.Huber

open Idealize.ShloMosaic Idealize.ShloMosaic.ValueIdx

/-- The label word as an extended real: the signed integer it encodes. -/
def lab (t : BitVec 32) : EReal := ((t.toInt : ℝ) : EReal)

/-- The branch-free element: min(a, 1/2) * (a - min(a, 1/2) / 2), weighted by comparisons of the clipped label. -/
def elemK (p : EReal) (t : BitVec 32) : EReal :=
  let a : EReal := max (p - lab t) (-(p - lab t))
  let m : EReal := min a (Ideal.ofBits .f32 0x3F000000#32)
  let cl : EReal := min (Ideal.ofBits .f32 0x40400000#32) (max (Ideal.ofBits .f32 0x00000000#32) (lab t))
  (m * (a - Ideal.ofBits .f32 0x3F000000#32 * m)) *
    Scalar.select (Ideal.cmp .olt cl (Ideal.ofBits .f32 0x3FC00000#32))
      (Scalar.select (Ideal.cmp .olt cl (Ideal.ofBits .f32 0x3F000000#32))
        (Ideal.ofBits .f32 0x3F800000#32) (Ideal.ofBits .f32 0x40A00000#32))
      (Scalar.select (Ideal.cmp .olt cl (Ideal.ofBits .f32 0x40200000#32))
        (Ideal.ofBits .f32 0x40800000#32) (Ideal.ofBits .f32 0x40000000#32))

/-- The four weights, by class. -/
abbrev lut : Fin 4 → BitVec 32 := fun
  | 0 => 0x3F800000#32 | 1 => 0x40A00000#32 | 2 => 0x40800000#32 | 3 => 0x40000000#32
  | _ => 0#32

/-- The class word of a label: rounded to the nearest integer, clipped to [0, 3], converted to a
    32-bit integer, and a negative value moved up by 4. -/
def classWord (t : BitVec 32) : BitVec 32 :=
  let k : BitVec 32 := Ideal.fptosi 32
    (min (((3#32 : BitVec 32).toInt : ℝ) : EReal)
      (max (((0#32 : BitVec 32).toInt : ℝ) : EReal) (Ideal.liftRound Ideal.roundHalfEven (lab t))))
  Scalar.select (IntOp.cmpi .slt k 0#32) (IntOp.addi k 4#32) k

/-- The table's row a class word selects: read signed, clamped into [0, 3]. -/
def lutRow (t : BitVec 32) : Fin 4 := ⟨min (classWord t).toInt.toNat 3, by omega⟩

/-- The piecewise element: (1/2 * d) * d where |d| < 1/2, 1/2 * (|d| - 1/4) elsewhere, times the table's weight. -/
def elemR (p : EReal) (t : BitVec 32) : EReal :=
  let d : EReal := p - lab t
  let a : EReal := max d (-d)
  Scalar.select (Ideal.cmp .olt a (Ideal.ofBits .f32 0x3F000000#32))
      ((Ideal.ofBits .f32 0x3F000000#32 * d) * d)
      (Ideal.ofBits .f32 0x3F000000#32 * (a - Ideal.ofBits .f32 0x3E800000#32))
    * Ideal.ofBits .f32 (lut (lutRow t))

/-- The flat position of block t, row r, lane l. -/
def flatIdx (t : Fin 16) (r : Fin 8192) (l : Fin 128) : (⟨1, ![16777216]⟩ : Shape).Idx :=
  ix1 ⟨(t.val * 8192 + r.val) * 128 + l.val, by have := t.isLt; have := r.isLt; have := l.isLt; omega⟩

end Cert.Huber

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPayload.lean ====
/-
  The body's four values at the exact (extended-real) reading, read at an index.

  * The block's contribution: the lane sums of the weighted elements, summed over the rows, is the
    double sum over rows and lanes of the element function of the two input blocks.
  * The accumulate step adds that scalar to every entry of the tile.
  * The reset tile is zero everywhere.
  * The output block is the tile with a leading unit axis.
-/
import proofs.«125862_j80341658239294_2_alg».proof.Proof.Gen.KernelIdeal.Skeleton
import proofs.«125862_j80341658239294_2_alg».proof.Proof.Spec
import proofs.«125862_j80341658239294_2_alg».proof.Proof.LibAxisReduce
import proofs.«125862_j80341658239294_2_alg».proof.Proof.LibColumn
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.KP

open Cert.KernelIdeal Cert.KernelIdeal.Gen

/-- The contribution of one block: the sum over its rows and lanes of the element function. -/
def contrib (x0 : Vec Ideal S8192x128 .f32) (x1 : Vec Ideal S8192x128 .i32) : EReal :=
  ∑ r : Fin 8192, ∑ l : Fin 128, Cert.Huber.elemK (x0 (ix2 r l)) (x1 (ix2 r l))

/-- The lane sums summed over the rows: the block's contribution, at the one entry of the [1,1] result. -/
theorem pay4_apply (x0 : Vec Ideal S8192x128 .f32) (x1 : Vec Ideal S8192x128 .i32) (u v : Fin 1) :
    k0_pay4 (F := Ideal) x0 x1 (ix2 u v) = contrib x0 x1 := by
  unfold k0_pay4 contrib
  dsimp only
  refine (Cert.LibColumn.shapeCast_a_a1_apply _ _ u v).trans ?_
  refine (Cert.LibAxisReduce.add_rows_apply _ _ _ _ _ u).trans ?_
  refine Finset.sum_congr rfl fun r _ => ?_
  refine (Cert.LibColumn.shapeCast_a_a1_apply _ _ r u).trans ?_
  refine (Cert.LibAxisReduce.add_cols_apply _ _ _ _ _ r).trans ?_
  refine Finset.sum_congr rfl fun l _ => ?_
  rw [shapeCast_self, shapeCast_self]
  rfl

/-- The accumulate step: every entry of the tile gains the [1,1] value's one entry. -/
theorem pay1_apply (v37 : FVec Ideal S1x1 .f32) (v38 : Vec Ideal S8x128 .f32) (y : S8x128.Idx) :
    k0_pay1 (F := Ideal) v37 v38 y = v38 y + v37 (ix2 (0 : Fin 1) (0 : Fin 1)) := by
  unfold k0_pay1
  rw [shapeCast_self, shapeCast_self]
  show v38 y + broadcastTo S8x128 v37 _ y = _
  congr 1
  refine broadcastTo_apply v37 _ y (ix2 (0 : Fin 1) (0 : Fin 1)) fun ax => ?_
  match ax with
  | ⟨0, _⟩ => rfl
  | ⟨1, _⟩ => rfl

/-- The reset tile is zero at every entry. -/
theorem pay3_apply (y : S8x128.Idx) : k0_pay3 (F := Ideal) y = 0 := by
  unfold k0_pay3
  rw [shapeCast_self]
  exact Ideal.ofBits_zero_f32

/-- The output block reads the tile under its leading unit coordinate. -/
theorem pay2_apply (v48 : Vec Ideal S8x128 .f32) (a : Fin 1) (s : Fin 8) (l : Fin 128) :
    k0_pay2 (F := Ideal) v48 (ix3 a s l) = v48 (ix2 s l) := by
  unfold k0_pay2
  refine shapeCast_apply v48 _ (ix3 a s l) (ix2 s l) ?_
  rw [Shape.rowMajor_val_two, Shape.rowMajor_val_three]
  have ha : a.val = 0 := by omega
  show s.val * 128 + l.val = (a.val * 8 + s.val) * 128 + l.val
  rw [ha]; omega

/-- The first point of a run of eight: zero plus the block's contribution, at every entry of the tile. -/
theorem step_first (x0 : Vec Ideal S8192x128 .f32) (x1 : Vec Ideal S8192x128 .i32) (y : S8x128.Idx) :
    k0_pay1 (F := Ideal) (k0_pay4 x0 x1) (k0_pay3 (F := Ideal)) y = 0 + contrib x0 x1 := by
  rw [pay1_apply, pay3_apply, pay4_apply]

/-- A later point: the tile's entry plus the block's contribution. -/
theorem step_next (x0 : Vec Ideal S8192x128 .f32) (x1 : Vec Ideal S8192x128 .i32) (xs : Vec Ideal S8x128 .f32) (y : S8x128.Idx) :
    k0_pay1 (F := Ideal) (k0_pay4 x0 x1) xs y = xs y + contrib x0 x1 := by
  rw [pay1_apply, pay4_apply]

end Cert.KernelIdeal.KP

end
-- ==== Proof.KAccum.lean ====
/-
  The accumulator over the grid.

  The sixteen grid points run in order; points 8q .. 8q+7 belong to output block q. After point n
  the accumulator tile holds, at every entry, zero plus the contributions of the blocks from the
  start of n's run of eight up to n. At the last point of a run the output block is that tile.
-/
import proofs.«125862_j80341658239294_2_alg».proof.Proof.Gen.KernelIdeal.Frame
import proofs.«125862_j80341658239294_2_alg».proof.Proof.KPieces
import proofs.«125862_j80341658239294_2_alg».proof.Proof.KPayload
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.KA

open Cert.KernelIdeal Cert.KernelIdeal.Gen Cert.KernelIdeal.KV Cert.KernelIdeal.KP

variable (m : (ℓ : Loc nD τ sig) → Buf (Elt Ideal) ℓ)

/-- The contribution of grid point k's pair of input blocks (zero past the grid). -/
def blockSum (c : Dev nD) (k : ℕ) : EReal :=
  if h : k < cfg0.N then contrib (iblk m c 0 ⟨k, h⟩) (iblk m c 1 ⟨k, h⟩) else 0

theorem blockSum_of_lt (c : Dev nD) (t : Fin cfg0.N) : blockSum m c t.val = contrib (iblk m c 0 t) (iblk m c 1 t) :=
  dif_pos t.isLt

/-- The running total after point n: zero plus the contributions from the start of n's run of eight up to n. -/
def accAt (c : Dev nD) (n : ℕ) : EReal := 0 + ∑ k ∈ Finset.range (n % 8 + 1), blockSum m c (n - n % 8 + k)

/-- A first point of a run: zero plus its block's contribution. -/
theorem acc_A (c : Dev nD) (t : Fin cfg0.N) (h0 : t.val % 8 = 0) (y : S8x128.Idx) :
    (outsAt0 m c t.val t.isLt).2 y = 0 + contrib (iblk m c 0 t) (iblk m c 1 t) := by
  have h1 : ¬t.val % 8 = 7 := by omega
  rw [outsAt0_A m c t h0 h1]
  exact (congrFun (sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) y).trans
    (step_first (iblk m c 0 t) (iblk m c 1 t) y)

/-- A middle point: what the point before left plus its block's contribution. -/
theorem acc_B (c : Dev nD) (t : Fin cfg0.N) (h0 : ¬t.val % 8 = 0) (h1 : ¬t.val % 8 = 7) (y : S8x128.Idx) :
    (outsAt0 m c t.val t.isLt).2 y
      = (outsAt0 m c (t.val - 1) (Nat.lt_of_le_of_lt (Nat.sub_le _ _) t.isLt)).2 y + contrib (iblk m c 0 t) (iblk m c 1 t) := by
  rw [outsAt0_B m c t h0 h1]
  exact (congrFun (sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) y).trans
    (step_next (iblk m c 0 t) (iblk m c 1 t) _ y)

/-- A last point of a run: the same update. -/
theorem acc_C (c : Dev nD) (t : Fin cfg0.N) (h0 : ¬t.val % 8 = 0) (h1 : t.val % 8 = 7) (y : S8x128.Idx) :
    (outsAt0 m c t.val t.isLt).2 y
      = (outsAt0 m c (t.val - 1) (Nat.lt_of_le_of_lt (Nat.sub_le _ _) t.isLt)).2 y + contrib (iblk m c 0 t) (iblk m c 1 t) := by
  rw [outsAt0_C m c t h0 h1]
  exact (congrFun (sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) y).trans
    (step_next (iblk m c 0 t) (iblk m c 1 t) _ y)

/-- At a last point the output block is the accumulator tile under a leading unit coordinate. -/
theorem out_eq_acc (c : Dev nD) (t : Fin cfg0.N) (h0 : ¬t.val % 8 = 0) (h1 : t.val % 8 = 7) (a : Fin 1) (s : Fin 8) (l : Fin 128) :
    (outsAt0 m c t.val t.isLt).1 (ix3 a s l) = (outsAt0 m c t.val t.isLt).2 (ix2 s l) := by
  rw [outsAt0_C m c t h0 h1]
  refine (congrFun (out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix3 a s l)).trans ?_
  refine (pay2_apply _ a s l).trans ?_
  exact (congrFun (sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 s l)).symm

/-- THE INVARIANT: after point n every entry of the accumulator tile is the running total. -/
theorem acc_eq (c : Dev nD) (n : ℕ) : ∀ (hn : n < cfg0.N) (y : S8x128.Idx), (outsAt0 m c n hn).2 y = accAt m c n := by
  induction n with
  | zero =>
    intro hn y
    refine (acc_A m c ⟨0, hn⟩ rfl y).trans ?_
    unfold accAt
    rw [show (0 : ℕ) % 8 + 1 = 1 from rfl, Finset.sum_range_one]
    exact congrArg (0 + ·) (blockSum_of_lt m c ⟨0, hn⟩).symm
  | succ n ih =>
    intro hn y
    have hN : n + 1 < 16 := lt_of_lt_of_eq hn (show cfg0.N = 16 from N_0)
    by_cases h0 : (n + 1) % 8 = 0
    · refine (acc_A m c ⟨n + 1, hn⟩ h0 y).trans ?_
      unfold accAt
      rw [h0, show (0 : ℕ) + 1 = 1 from rfl, Finset.sum_range_one]
      exact congrArg (0 + ·) (blockSum_of_lt m c ⟨n + 1, hn⟩).symm
    · have step : (outsAt0 m c (n + 1) hn).2 y = (outsAt0 m c n (Nat.lt_of_succ_lt hn)).2 y + contrib (iblk m c 0 ⟨n + 1, hn⟩) (iblk m c 1 ⟨n + 1, hn⟩) := by
        by_cases h1 : (n + 1) % 8 = 7
        · exact acc_C m c ⟨n + 1, hn⟩ h0 h1 y
        · exact acc_B m c ⟨n + 1, hn⟩ h0 h1 y
      rw [step, ih (Nat.lt_of_succ_lt hn) y]
      unfold accAt
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3, add_assoc]
      exact congrArg (fun z => 0 + (∑ k ∈ Finset.range (n % 8 + 1), blockSum m c (n - n % 8 + k) + z)) (blockSum_of_lt m c ⟨n + 1, hn⟩).symm

end Cert.KernelIdeal.KA

end
-- ==== Proof.KFinal.lean ====
/-
  The output array, the host lines after the kernel, and the run.

  Output block q (q = 0, 1) is written back once, after point 8q + 7, and every entry of it is the
  total of run q. The host then adds entry (0,0,0) of block 0 to entry (0,0,0) of block 1 and
  divides by 2^24.
-/
import proofs.«125862_j80341658239294_2_alg».proof.Proof.KAccum
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KF

open Cert.KernelIdeal Cert.KernelIdeal.Gen Cert.KernelIdeal.KA

variable (m : (ℓ : Loc nD τ sig) → Buf (Elt Ideal) ℓ) (ρ : Dev nD → PrngReg)

/-- Where the output window sits at each point: block t / 8 along the first axis. -/
theorem out_idx : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- What the output array ends holding: every entry of block q is the total of run q. -/
def G (c : Dev nD) : S2x8x128.Idx → EReal := fun i => accAt m c (8 * (i 0).val + 7)

/-- At a last point of a run, every entry of the output block is the running total. -/
theorem out_eq (c : Dev nD) (t : Fin cfg0.N) (h7 : t.val % 8 = 7) (j : S1x8x128.Idx) :
    (outsAt0 m c t.val t.isLt).1 j = accAt m c t.val := by
  obtain ⟨a, s, l, rfl⟩ : ∃ (a : Fin 1) (s : Fin 8) (l : Fin 128), j = ix3 a s l := ⟨j 0, j 1, j 2, eq_ix3 j⟩
  have h0 : ¬t.val % 8 = 0 := by omega
  exact (out_eq_acc m c t h0 h7 a s l).trans (acc_eq m c t.val t.isLt (ix2 s l))

/-- What a flushing point writes back is its block of G. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  obtain ⟨e0, e1, e2⟩ := out_idx t
  show (cfg0.win 2).cut (grid0.coords t) ((dats m 0 c).after 2 t) = _
  rw [after0_2]
  funext j
  rw [View.read_apply]
  show (outsAt0 m c t.val t.isLt).1 j = G m c (((cfg0.win 2).blk t).view.emb j)
  rw [out_eq m c t h7 j]
  unfold G
  have hemb : ((((cfg0.win 2).blk t).view.emb j) 0).val = win0_2.index t (0 : Fin 3) * 1 + 1 * (j 0).val := rfl
  have hj : (j 0).val < 1 := (j 0).isLt
  rw [hemb, e0]
  congr 1
  omega

/-- Every entry of the output array is in the block of the last point of its run. -/
theorem cover (c : Dev nD) (i : S2x8x128.Idx) :
    ∃ t : Fin cfg0.N, (cfg0.win 2).flush t = true ∧ i ∈ ((cfg0.win 2).blk t).view.set := by
  have hi0 : (i 0).val < 2 := (i 0).isLt
  have h1 : (i 1).val < 8 := (i 1).isLt
  have h2 : (i 2).val < 128 := (i 2).isLt
  have hN : cfg0.N = 16 := N_0
  have ht : 8 * (i 0).val + 7 < cfg0.N := by rw [hN]; omega
  obtain ⟨e0, e1, e2⟩ := out_idx ⟨8 * (i 0).val + 7, ht⟩
  have e0' : win0_2.index ⟨8 * (i 0).val + 7, ht⟩ (0 : Fin 3) = (8 * (i 0).val + 7) / 8 := e0
  refine ⟨⟨8 * (i 0).val + 7, ht⟩, (flush0_2 _).mpr (by show (8 * (i 0).val + 7) % 8 = 7; omega), ?_⟩
  show i ∈ ((View.whole main_v2).slice (win0_2.rect ⟨8 * (i 0).val + 7, ht⟩)).set
  rw [View.set_slice_whole, Rect.mem_set_unit]
  intro a
  match a with
  | ⟨0, _⟩ =>
    show win0_2.index ⟨8 * (i 0).val + 7, ht⟩ (0 : Fin 3) * 1 ≤ (i 0).val ∧ (i 0).val < win0_2.index ⟨8 * (i 0).val + 7, ht⟩ (0 : Fin 3) * 1 + 1
    rw [e0']; omega
  | ⟨1, _⟩ =>
    show win0_2.index ⟨8 * (i 0).val + 7, ht⟩ (1 : Fin 3) * 8 ≤ (i 1).val ∧ (i 1).val < win0_2.index ⟨8 * (i 0).val + 7, ht⟩ (1 : Fin 3) * 8 + 8
    rw [e1]; omega
  | ⟨2, _⟩ =>
    show win0_2.index ⟨8 * (i 0).val + 7, ht⟩ (2 : Fin 3) * 128 ≤ (i 2).val ∧ (i 2).val < win0_2.index ⟨8 * (i 0).val + 7, ht⟩ (2 : Fin 3) * 128 + 128
    rw [e2]; omega

/-- The output array after the kernel. -/
theorem final (c : Dev nD) : (dats m 0 c).arrAt 2 cfg0.N = G m c :=
  (dats m 0 c).arrAt_eq_of_cover 2 (G m c) (flushed_eq m c) (cover c)

/-- Entry (q,0,0) of the output array, sliced out as a [1,1,1] block and read as a scalar, is run q's total. -/
theorem scalar_of_block (c : Dev nD) (q : Fin 2) (off : Fin 3 → Nat) (hoff : off = ![q.val, 0, 0]) (h : S2x8x128.Slices off S1x1x1) (j : S_.Idx) :
    shapeCast S_ (extractStridedSlice S1x1x1 off (G m c) h) shapeCasts_S1x1x1_S_ j = accAt m c (8 * q.val + 7) := by
  subst hoff
  have h1 : S1x1x1.numel = 1 := by decide
  have h2 : S_.numel = 1 := by decide
  have a1 : (S1x1x1.rowMajor (ix3 (0 : Fin 1) (0 : Fin 1) (0 : Fin 1))).val < 1 := lt_of_lt_of_eq (S1x1x1.rowMajor _).isLt h1
  have a2 : (S_.rowMajor j).val < 1 := lt_of_lt_of_eq (S_.rowMajor j).isLt h2
  refine (shapeCast_apply _ _ j (ix3 (0 : Fin 1) (0 : Fin 1) (0 : Fin 1)) ((Nat.lt_one_iff.mp a1).trans (Nat.lt_one_iff.mp a2).symm)).trans ?_
  refine (extractStridedSlice_apply _ _ _ (ix3 (0 : Fin 1) (0 : Fin 1) (0 : Fin 1)) (ix3 q (0 : Fin 8) (0 : Fin 128)) ?_).trans ?_
  · intro a
    match a with
    | ⟨0, _⟩ => show q.val = q.val + 0; omega
    | ⟨1, _⟩ => rfl
    | ⟨2, _⟩ => rfl
  · rfl

/-- The host lines after the kernel: the two totals added and divided by 2^24. -/
theorem tail_v8 (c : Dev nD) :
    Pipeline.afterTail₀ cfgs (dats m) 0 (V0 m) [hostOps1] c main_v8
      = fun _ => Ideal.div (accAt m c 7 + accAt m c 15) (Ideal.ofBits .f32 0x4B800000#32) := by
  unfold Pipeline.afterTail₀
  show StableHlo.after hostOps1 _ (Proc.devRef .tc main_v8) = _
  after_results
  have hW : Pipeline.withArrays (cfgs 0).spec c (V0 m c) (fun w => (dats m 0 c).arrAt w (cfgs 0).N) (Proc.devRef .tc main_v2) = G m c :=
    (Pipeline.withArrays_arr spec0 launch0.win.arr_inj c _ _ 2).trans (final m c)
  generalize hWg : Pipeline.withArrays (cfgs 0).spec c (V0 m c) (fun w => (dats m 0 c).arrAt w (cfgs 0).N) (Proc.devRef .tc main_v2) = W
  have hW' : W = G m c := hWg.symm.trans hW
  subst hW'
  funext j
  show Ideal.div (shapeCast S_ (extractStridedSlice S1x1x1 ![0, 0, 0] (G m c) slices_S2x8x128_S1x1x1_0_0_0) shapeCasts_S1x1x1_S_ j
      + shapeCast S_ (extractStridedSlice S1x1x1 ![1, 0, 0] (G m c) slices_S2x8x128_S1x1x1_1_0_0) shapeCasts_S1x1x1_S_ j)
    (Ideal.ofBits .f32 0x4B800000#32) = _
  rw [scalar_of_block m c 0 ![0, 0, 0] rfl slices_S2x8x128_S1x1x1_0_0_0 j, scalar_of_block m c 1 ![1, 0, 0] rfl slices_S2x8x128_S1x1x1_1_0_0 j]
  rfl

/-- THE RUN: the result is the two runs' totals added and divided by 2^24; the arguments are unchanged. -/
theorem run : θ_run defs (onTc (τ := τ) (main (F := Ideal))) ⟨m, fun _ => 0, ρ⟩ (fun r => ∀ c : Dev nD,
      r.2.mem ((c.tc : Thread nD τ).loc main_v8) = (fun _ => Ideal.div (accAt m c 7 + accAt m c 15) (Ideal.ofBits .f32 0x4B800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (tail_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KF

end
-- ==== Proof.KBlocks.lean ====
/-
  The input blocks as pieces of the two argument arrays.

  Both arguments are flat arrays of 16777216 entries viewed as 131072 rows of 128 lanes; grid point
  t reads rows 8192 t .. 8192 t + 8191. So the block's entry at row r, lane l is the argument's
  entry at flat position (t * 8192 + r) * 128 + l, and a block's contribution is the double sum of
  the element function over those positions.
-/
import proofs.«125862_j80341658239294_2_alg».proof.Proof.Gen.KernelIdeal.Frame
import proofs.«125862_j80341658239294_2_alg».proof.Proof.KPayload
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.KB

open Cert.KernelIdeal Cert.KernelIdeal.Gen Cert.KernelIdeal.KP

variable (m : (ℓ : Loc nD τ sig) → Buf (Elt Ideal) ℓ)

/-- A grid point as one of the sixteen blocks. -/
def blk16 (t : Fin cfg0.N) : Fin 16 := ⟨t.val, lt_of_lt_of_eq t.isLt (show cfg0.N = 16 from N_0)⟩

/-- Where the two input windows sit at each point: block row t, block column 0. -/
theorem in_idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The first argument as the region finds it: viewed as rows of 128 lanes. -/
theorem V_v0 (c : Dev nD) : (V m c main_v0 : S131072x128.Idx → EReal)
    = shapeCast S131072x128 (m ((c : Thread nD τ).loc main_arg0)) shapeCasts_S16777216_S131072x128 := by
  show StableHlo.after hostOps0 (fun b => m (c, b)) (Proc.devRef .tc main_v0) = _
  after_results
  rfl

/-- The second argument as the region finds it: viewed as rows of 128 lanes. -/
theorem V_v1 (c : Dev nD) : (V m c main_v1 : S131072x128.Idx → BitVec 32)
    = shapeCast S131072x128 (m ((c : Thread nD τ).loc main_arg1)) shapeCasts_S16777216_S131072x128 := by
  show StableHlo.after hostOps0 (fun b => m (c, b)) (Proc.devRef .tc main_v1) = _
  after_results
  rfl

/-- The flat array viewed as rows of 128 lanes, at (R, l): position R * 128 + l. -/
theorem rows_apply {α : Type} (x : S16777216.Idx → α) (R : Fin 131072) (l : Fin 128) (k : Fin 16777216) (hk : k.val = R.val * 128 + l.val) :
    shapeCast S131072x128 x shapeCasts_S16777216_S131072x128 (ix2 R l) = x (ix1 k) := by
  refine shapeCast_apply x _ (ix2 R l) (ix1 k) ?_
  rw [Shape.rowMajor_val_two, Shape.rowMajor_val_one]
  exact hk

/-- Block t of the first argument at row r, lane l. -/
theorem iblk0_apply (c : Dev nD) (t : Fin cfg0.N) (r : Fin 8192) (l : Fin 128) :
    (iblk m c 0 t : Vec Ideal S8192x128 .f32) (ix2 r l) = m ((c : Thread nD τ).loc main_arg0) (Cert.Huber.flatIdx (blk16 t) r l) := by
  obtain ⟨e0, e1, -, -⟩ := in_idx t
  have ht : t.val < 16 := lt_of_lt_of_eq t.isLt (show cfg0.N = 16 from N_0)
  unfold iblk
  rw [View.read_apply]
  show V m c main_v0 (((cfg0.win 0).blk t).view.emb (ix2 r l)) = _
  rw [V_v0]
  have hR : win0_0.index t (0 : Fin 2) * 8192 + 1 * r.val < 131072 := by rw [e0]; have := r.isLt; omega
  have hl : win0_0.index t (1 : Fin 2) * 128 + 1 * l.val < 128 := by rw [e1]; have := l.isLt; omega
  have hemb : ((cfg0.win 0).blk t).view.emb (ix2 r l) = ix2 (⟨win0_0.index t (0 : Fin 2) * 8192 + 1 * r.val, hR⟩ : Fin 131072) (⟨win0_0.index t (1 : Fin 2) * 128 + 1 * l.val, hl⟩ : Fin 128) := by
    funext a; apply Fin.ext
    match a with
    | ⟨0, _⟩ => rfl
    | ⟨1, _⟩ => rfl
  rw [hemb]
  refine rows_apply _ _ _ _ ?_
  show (t.val * 8192 + r.val) * 128 + l.val = (win0_0.index t (0 : Fin 2) * 8192 + 1 * r.val) * 128 + (win0_0.index t (1 : Fin 2) * 128 + 1 * l.val)
  rw [e0, e1]; omega

/-- Block t of the second argument at row r, lane l. -/
theorem iblk1_apply (c : Dev nD) (t : Fin cfg0.N) (r : Fin 8192) (l : Fin 128) :
    (iblk m c 1 t : Vec Ideal S8192x128 .i32) (ix2 r l) = m ((c : Thread nD τ).loc main_arg1) (Cert.Huber.flatIdx (blk16 t) r l) := by
  obtain ⟨-, -, e0, e1⟩ := in_idx t
  have ht : t.val < 16 := lt_of_lt_of_eq t.isLt (show cfg0.N = 16 from N_0)
  unfold iblk
  rw [View.read_apply]
  show V m c main_v1 (((cfg0.win 1).blk t).view.emb (ix2 r l)) = _
  rw [V_v1]
  have hR : win0_1.index t (0 : Fin 2) * 8192 + 1 * r.val < 131072 := by rw [e0]; have := r.isLt; omega
  have hl : win0_1.index t (1 : Fin 2) * 128 + 1 * l.val < 128 := by rw [e1]; have := l.isLt; omega
  have hemb : ((cfg0.win 1).blk t).view.emb (ix2 r l) = ix2 (⟨win0_1.index t (0 : Fin 2) * 8192 + 1 * r.val, hR⟩ : Fin 131072) (⟨win0_1.index t (1 : Fin 2) * 128 + 1 * l.val, hl⟩ : Fin 128) := by
    funext a; apply Fin.ext
    match a with
    | ⟨0, _⟩ => rfl
    | ⟨1, _⟩ => rfl
  rw [hemb]
  refine rows_apply _ _ _ _ ?_
  show (t.val * 8192 + r.val) * 128 + l.val = (win0_1.index t (0 : Fin 2) * 8192 + 1 * r.val) * 128 + (win0_1.index t (1 : Fin 2) * 128 + 1 * l.val)
  rw [e0, e1]; omega

/-- A block's contribution, over the arguments themselves. -/
theorem contrib_blk (c : Dev nD) (t : Fin cfg0.N) :
    contrib (iblk m c 0 t) (iblk m c 1 t)
      = ∑ r : Fin 8192, ∑ l : Fin 128, Cert.Huber.elemK (m ((c : Thread nD τ).loc main_arg0) (Cert.Huber.flatIdx (blk16 t) r l))
          (m ((c : Thread nD τ).loc main_arg1) (Cert.Huber.flatIdx (blk16 t) r l)) := by
  unfold contrib
  refine Finset.sum_congr rfl fun r _ => Finset.sum_congr rfl fun l _ => ?_
  rw [iblk0_apply m c t r l, iblk1_apply m c t r l]

end Cert.KernelIdeal.KB

end
-- ==== Proof.ElemLaw.lean ====
/-
  The branch-free element and the piecewise element agree at every extended real and every label word.
-/
import proofs.«125862_j80341658239294_2_alg».proof.Proof.Spec

noncomputable section

namespace Cert.Huber

open Idealize.ShloMosaic

/-! ### The float patterns as extended reals -/

theorem ofBits_half : Ideal.ofBits .f32 0x3F000000#32 = ((1 / 2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_three_halves : Ideal.ofBits .f32 0x3FC00000#32 = ((3 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_five_halves : Ideal.ofBits .f32 0x40200000#32 = ((5 / 2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_five : Ideal.ofBits .f32 0x40A00000#32 = ((5 : ℝ) : EReal) := by
  simp [Ideal.ofBits, Ideal.ieee, -EReal.coe_mul]; norm_num

/-! ### Selecting by a comparison, and the order of the reals inside the extended reals -/

/-- A select on the bit of `x < y` is the `if` on the order. -/
theorem select_cmp_olt {α : Type} (x y : EReal) (u v : α) :
    Scalar.select (Ideal.cmp .olt x y) u v = if x < y then u else v := by
  by_cases h : x < y <;> simp [Ideal.cmp, Scalar.select, h]

theorem coe_max_real (x y : ℝ) : ((max x y : ℝ) : EReal) = max (x : EReal) (y : EReal) :=
  EReal.coe_strictMono.monotone.map_max

theorem coe_min_real (x y : ℝ) : ((min x y : ℝ) : EReal) = min (x : EReal) (y : EReal) :=
  EReal.coe_strictMono.monotone.map_min

/-! ### The value part -/

/-- With a = max d (-d) and h = 1/2: min a h * (a - h * min a h) is (h * d) * d where a < h and
    h * (a - 1/4) elsewhere. Where a < h the difference d is a real number and both sides are d * d / 2;
    elsewhere min a h = h and h * h = 1/4, whatever a is. -/
theorem value_eq (d : EReal) :
    min (max d (-d)) ((1 / 2 : ℝ) : EReal)
        * (max d (-d) - ((1 / 2 : ℝ) : EReal) * min (max d (-d)) ((1 / 2 : ℝ) : EReal))
      = if max d (-d) < ((1 / 2 : ℝ) : EReal) then (((1 / 2 : ℝ) : EReal) * d) * d
        else ((1 / 2 : ℝ) : EReal) * (max d (-d) - ((1 / 4 : ℝ) : EReal)) := by
  by_cases h : max d (-d) < ((1 / 2 : ℝ) : EReal)
  · rw [if_pos h, min_eq_left h.le]
    induction d using EReal.rec with
    | bot => simp at h
    | top => simp at h
    | coe x =>
      rw [← EReal.coe_neg, ← coe_max_real]
      norm_cast
      rcases le_total x (-x) with hx | hx
      · rw [max_eq_right hx]; ring
      · rw [max_eq_left hx]; ring
  · rw [if_neg h, min_eq_right (not_lt.mp h), ← EReal.coe_mul]
    norm_num

/-! ### The weight part -/

/-- Rounding an integer to the nearest integer leaves it. -/
theorem roundHalfEven_intCast (n : ℤ) : Ideal.roundHalfEven (n : ℝ) = n := by
  simp [Ideal.roundHalfEven]

/-- Clipping the real of an integer to [0, 3] is the real of the integer clipped. -/
theorem clip_intCast (n : ℤ) :
    min ((3 : ℝ) : EReal) (max ((0 : ℝ) : EReal) ((n : ℝ) : EReal))
      = (((min 3 (max 0 n) : ℤ) : ℝ) : EReal) := by
  rw [← coe_max_real, ← coe_min_real]
  push_cast
  rfl

/-- Converting the real of an integer in [0, 3] to a 32-bit word gives that integer's word. -/
theorem fptosi_small (c : ℤ) (h0 : 0 ≤ c) (h3 : c ≤ 3) :
    Ideal.fptosi 32 (((c : ℝ)) : EReal) = BitVec.ofInt 32 c := by
  unfold Ideal.fptosi
  rw [Ideal.toIntClamped_coe]
  congr 1
  simp only [Int.floor_intCast, Int.ceil_intCast, ite_self]
  norm_num
  omega

/-- The word of an integer in [0, 3] is not negative, so the select keeps it. -/
theorem keep_small (c : ℤ) (h0 : 0 ≤ c) (h3 : c ≤ 3) :
    Scalar.select (IntOp.cmpi .slt (BitVec.ofInt 32 c) 0#32) (IntOp.addi (BitVec.ofInt 32 c) 4#32)
      (BitVec.ofInt 32 c) = BitVec.ofInt 32 c := by
  interval_cases c <;> decide

/-- The class word of a label is the word of the label clipped to [0, 3]. -/
theorem classWord_eq (t : BitVec 32) : classWord t = BitVec.ofInt 32 (min 3 (max 0 t.toInt)) := by
  have h3 : (3#32 : BitVec 32).toInt = 3 := by decide
  have h0 : (0#32 : BitVec 32).toInt = 0 := by decide
  unfold classWord lab
  simp only [Ideal.liftRound_coe, roundHalfEven_intCast, h3, h0]
  rw [show ((((3 : ℤ) : ℝ)) : EReal) = ((3 : ℝ) : EReal) by norm_num,
    show ((((0 : ℤ) : ℝ)) : EReal) = ((0 : ℝ) : EReal) by norm_num, clip_intCast,
    fptosi_small _ (by omega) (by omega), keep_small _ (by omega) (by omega)]

/-- The comparison chain on the clipped label picks the table's entry: the label is an integer n, both
    sides see n clipped to [0, 3], and the chain answers 1, 5, 4, 2 at 0, 1, 2, 3 as the table does. -/
theorem weight_eq (t : BitVec 32) :
    Scalar.select (Ideal.cmp .olt (min (Ideal.ofBits .f32 0x40400000#32) (max (Ideal.ofBits .f32 0x00000000#32) (lab t))) (Ideal.ofBits .f32 0x3FC00000#32))
      (Scalar.select (Ideal.cmp .olt (min (Ideal.ofBits .f32 0x40400000#32) (max (Ideal.ofBits .f32 0x00000000#32) (lab t))) (Ideal.ofBits .f32 0x3F000000#32))
        (Ideal.ofBits .f32 0x3F800000#32) (Ideal.ofBits .f32 0x40A00000#32))
      (Scalar.select (Ideal.cmp .olt (min (Ideal.ofBits .f32 0x40400000#32) (max (Ideal.ofBits .f32 0x00000000#32) (lab t))) (Ideal.ofBits .f32 0x40200000#32))
        (Ideal.ofBits .f32 0x40800000#32) (Ideal.ofBits .f32 0x40000000#32))
      = Ideal.ofBits .f32 (lut (lutRow t)) := by
  have hrow : (lutRow t).val = (min 3 (max 0 t.toInt)).toNat := by
    show min (classWord t).toInt.toNat 3 = _
    rw [classWord_eq]
    have hb : 0 ≤ min 3 (max 0 t.toInt) ∧ min 3 (max 0 t.toInt) ≤ 3 := by omega
    generalize min 3 (max 0 t.toInt) = c at hb
    obtain ⟨h0, h3⟩ := hb
    interval_cases c <;> decide
  rw [ofBits_three, ofBits_zero, lab, clip_intCast]
  simp only [select_cmp_olt, ofBits_three_halves, ofBits_half, ofBits_five_halves, EReal.coe_lt_coe_iff]
  have hb : 0 ≤ min 3 (max 0 t.toInt) ∧ min 3 (max 0 t.toInt) ≤ 3 := by omega
  generalize min 3 (max 0 t.toInt) = c at hrow hb
  obtain ⟨h0, h3⟩ := hb
  generalize lutRow t = row at hrow
  interval_cases c
  · have hr : row = 0 := Fin.ext hrow
    subst hr
    norm_num
    rfl
  · have hr : row = 1 := Fin.ext hrow
    subst hr
    norm_num
    rfl
  · have hr : row = 2 := Fin.ext hrow
    subst hr
    norm_num
    rfl
  · have hr : row = 3 := Fin.ext hrow
    subst hr
    norm_num
    rfl

theorem elem_eq (p : EReal) (t : BitVec 32) : elemK p t = elemR p t := by
  unfold elemK elemR
  dsimp only
  rw [weight_eq t, select_cmp_olt, ofBits_half, ofBits_quarter, value_eq]

end Cert.Huber

end
-- ==== Proof.SumFlat.lean ====
/-
  A sum over the 16777216 flat positions is the triple sum over 16 blocks, 8192 rows and 128 lanes.

  The flat positions are the numbers below 16 * 8192 * 128; dividing by 128 and then by 8192 identifies
  them with the triples (block, row, lane), the triple (t, r, l) sitting at (t * 8192 + r) * 128 + l.
  A sum re-indexed along a bijection is unchanged, and a sum over a product is the iterated sum.
-/
import proofs.«125862_j80341658239294_2_alg».proof.Proof.Spec

noncomputable section

namespace Cert.Huber

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- The triples (block, row, lane) as flat positions. -/
def flatEquiv : (Fin 16 × Fin 8192) × Fin 128 ≃ (⟨1, ![16777216]⟩ : Shape).Idx :=
  ((finProdFinEquiv.prodCongr (Equiv.refl (Fin 128))).trans finProdFinEquiv).trans
    ((finCongr (by norm_num : 16 * 8192 * 128 = 16777216)).trans idxEquiv1.symm)

theorem flatEquiv_apply (t : Fin 16) (r : Fin 8192) (l : Fin 128) :
    flatEquiv ((t, r), l) = flatIdx t r l := by
  have hv : ((flatEquiv ((t, r), l)) 0).val = (t.val * 8192 + r.val) * 128 + l.val := by
    show l.val + 128 * (r.val + 8192 * t.val) = _
    ring
  rw [eq_ix1 (flatEquiv ((t, r), l))]
  unfold flatIdx
  congr 1
  exact Fin.ext hv

theorem sum_flat {M : Type*} [AddCommMonoid M] (g : (⟨1, ![16777216]⟩ : Shape).Idx → M) :
    ∑ i, g i = ∑ t : Fin 16, ∑ r : Fin 8192, ∑ l : Fin 128, g (flatIdx t r l) := by
  rw [← Equiv.sum_comp flatEquiv g, Fintype.sum_prod_type, Fintype.sum_prod_type]
  simp only [flatEquiv_apply]

end Cert.Huber

end
-- ==== Proof.Bridge.lean ====
/-
  The two totals are the whole sum.

  The kernel adds the total of blocks 0..7 to the total of blocks 8..15, each total starting from
  zero. Together they are zero plus the sum over all sixteen blocks; a block's contribution is the
  double sum over its rows and lanes; the sixteen blocks of 8192 rows of 128 lanes are exactly the
  16777216 flat positions; and at each position the branch-free element is the piecewise one.
  Only commutativity and associativity of addition on the extended reals are used.
-/
import proofs.«125862_j80341658239294_2_alg».proof.Proof.KAccum
import proofs.«125862_j80341658239294_2_alg».proof.Proof.KBlocks
import proofs.«125862_j80341658239294_2_alg».proof.Proof.ElemLaw
import proofs.«125862_j80341658239294_2_alg».proof.Proof.SumFlat

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen Cert.KernelIdeal.KA Cert.KernelIdeal.KB Cert.KernelIdeal.KP

variable (m : (ℓ : Loc nD τ sig) → Buf (Elt Ideal) ℓ)

/-- Block t's contribution over the arguments, for t one of the sixteen blocks. -/
theorem blockSum_fin (c : Dev nD) (t : Fin 16) :
    blockSum m c t.val = ∑ r : Fin 8192, ∑ l : Fin 128,
      Cert.Huber.elemK (m ((c : Thread nD τ).loc main_arg0) (Cert.Huber.flatIdx t r l)) (m ((c : Thread nD τ).loc main_arg1) (Cert.Huber.flatIdx t r l)) := by
  have ht : t.val < cfg0.N := lt_of_lt_of_eq t.isLt (show cfg0.N = 16 from N_0).symm
  exact (blockSum_of_lt m c ⟨t.val, ht⟩).trans (contrib_blk m c ⟨t.val, ht⟩)

/-- The two runs' totals added: zero plus the sum over every position of the piecewise element. -/
theorem total_eq (c : Dev nD) :
    accAt m c 7 + accAt m c 15
      = Ideal.ofBits .f32 0x00000000#32 + ∑ i : S16777216.Idx,
          Cert.Huber.elemR (m ((c : Thread nD τ).loc main_arg0) i) (m ((c : Thread nD τ).loc main_arg1) i) := by
  unfold accAt
  show (0 + ∑ k ∈ Finset.range 8, blockSum m c (0 + k)) + (0 + ∑ k ∈ Finset.range 8, blockSum m c (8 + k)) = _
  simp only [Nat.zero_add]
  rw [zero_add, zero_add, Ideal.ofBits_zero_f32, zero_add]
  rw [← Finset.sum_range_add (fun k => blockSum m c k) 8 8]
  rw [← Fin.sum_univ_eq_sum_range (fun k => blockSum m c k) (8 + 8)]
  show ∑ t : Fin 16, blockSum m c t.val = _
  rw [Cert.Huber.sum_flat (fun i => Cert.Huber.elemR (m ((c : Thread nD τ).loc main_arg0) i) (m ((c : Thread nD τ).loc main_arg1) i))]
  refine Finset.sum_congr rfl fun t _ => ?_
  rw [blockSum_fin m c t]
  refine Finset.sum_congr rfl fun r _ => Finset.sum_congr rfl fun l _ => ?_
  exact Cert.Huber.elem_eq _ _

end Cert.KernelIdeal.Bridge

end
-- ==== Proof.RefRunOps.lean ====
/-
  The reference program as a straight line of its forty-two host operations, in order, with the
  three outlined functions (the rounding, the clip, the select) written at their call sites over
  the buffers their calls name; and its run: every weakly fair execution terminates with each
  buffer at the fold of the operations' results over the launch contents.
-/
import proofs.«125862_j80341658239294_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The forty-two operations, in order: the table, the label as a float, its rounding, the clip's six
    (two bounds converted and broadcast, the maximum, the minimum), the conversion to an integer and the
    wrap of a negative one (compare, add four, select), the column of start indices and the gather;
    then the difference, its absolute value, the comparison with one half, the two branches, the
    select, the product with the gathered weight, the sum from zero and the division. -/
abbrev ops : List (HloOp τ sig (Elt F)) :=
  [ nullary main_cst (fun i => FloatOps.ofBits .f32 (lit0 (S4.rowMajor i))),
    unary main_arg1 main_v0 (sitofp .f32 : (⟨S16777216, .i32⟩ : BufTy).Contents (Elt F) → (⟨S16777216, .f32⟩ : BufTy).Contents (Elt F)),
    unary main_v0 main_v1 (Host.roundeven : (⟨S16777216, .f32⟩ : BufTy).Contents (Elt F) → (⟨S16777216, .f32⟩ : BufTy).Contents (Elt F)),
    nullary main_c (constantI S_ 32 0#32),
    nullary main_c_0 (constantI S_ 32 3#32),
    unary main_c main_call1_v0 (sitofp .f32 : (⟨S_, .i32⟩ : BufTy).Contents (Elt F) → (⟨S_, .f32⟩ : BufTy).Contents (Elt F)),
    unary main_call1_v0 main_call1_v1 (broadcastInDim S16777216 ![] bcast_S_S16777216 : (⟨S_, .f32⟩ : BufTy).Contents (Elt F) → (⟨S16777216, .f32⟩ : BufTy).Contents (Elt F)),
    binary main_call1_v1 main_v1 main_call1_v2 (maximumf : (⟨S16777216, .f32⟩ : BufTy).Contents (Elt F) → (⟨S16777216, .f32⟩ : BufTy).Contents (Elt F) → (⟨S16777216, .f32⟩ : BufTy).Contents (Elt F)),
    unary main_c_0 main_call1_v3 (sitofp .f32 : (⟨S_, .i32⟩ : BufTy).Contents (Elt F) → (⟨S_, .f32⟩ : BufTy).Contents (Elt F)),
    unary main_call1_v3 main_call1_v4 (broadcastInDim S16777216 ![] bcast_S_S16777216 : (⟨S_, .f32⟩ : BufTy).Contents (Elt F) → (⟨S16777216, .f32⟩ : BufTy).Contents (Elt F)),
    binary main_call1_v4 main_call1_v2 main_v2 (minimumf : (⟨S16777216, .f32⟩ : BufTy).Contents (Elt F) → (⟨S16777216, .f32⟩ : BufTy).Contents (Elt F) → (⟨S16777216, .f32⟩ : BufTy).Contents (Elt F)),
    unary main_v2 main_v3 (fptosi 32 : (⟨S16777216, .f32⟩ : BufTy).Contents (Elt F) → (⟨S16777216, .i32⟩ : BufTy).Contents (Elt F)),
    nullary main_c_1 (constantI S_ 32 0#32),
    unary main_c_1 main_v4 (broadcastInDim S16777216 ![] bcast_S_S16777216 : (⟨S_, .i32⟩ : BufTy).Contents (Elt F) → (⟨S16777216, .i32⟩ : BufTy).Contents (Elt F)),
    binary main_v3 main_v4 main_v5 (cmpi .slt : (⟨S16777216, .i32⟩ : BufTy).Contents (Elt F) → (⟨S16777216, .i32⟩ : BufTy).Contents (Elt F) → (⟨S16777216, .i1⟩ : BufTy).Contents (Elt F)),
    nullary main_c_2 (constantI S_ 32 4#32),
    unary main_c_2 main_v6 (broadcastInDim S16777216 ![] bcast_S_S16777216 : (⟨S_, .i32⟩ : BufTy).Contents (Elt F) → (⟨S16777216, .i32⟩ : BufTy).Contents (Elt F)),
    binary main_v3 main_v6 main_v7 (addi : (⟨S16777216, .i32⟩ : BufTy).Contents (Elt F) → (⟨S16777216, .i32⟩ : BufTy).Contents (Elt F) → (⟨S16777216, .i32⟩ : BufTy).Contents (Elt F)),
    ternary main_v5 main_v7 main_v3 main_v8 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v8 main_v9 (broadcastInDim S16777216x1 ![0] bcast_S16777216_S16777216x1_0 : (⟨S16777216, .i32⟩ : BufTy).Contents (Elt F) → (⟨S16777216x1, .i32⟩ : BufTy).Contents (Elt F)),
    binary main_cst main_v9 main_v10 ((fun x i => Host.gather gather_S4_S16777216x1_S16777216_n_0_n_n_0_1_1 x i) : (⟨S4, .f32⟩ : BufTy).Contents (Elt F) → (⟨S16777216x1, .i32⟩ : BufTy).Contents (Elt F) → (⟨S16777216, .f32⟩ : BufTy).Contents (Elt F)),
    binary main_arg0 main_v0 main_v11 (subf : (⟨S16777216, .f32⟩ : BufTy).Contents (Elt F) → (⟨S16777216, .f32⟩ : BufTy).Contents (Elt F) → (⟨S16777216, .f32⟩ : BufTy).Contents (Elt F)),
    unary main_v11 main_v12 (Host.absf : (⟨S16777216, .f32⟩ : BufTy).Contents (Elt F) → (⟨S16777216, .f32⟩ : BufTy).Contents (Elt F)),
    nullary main_cst_3 (constant S_ .f32 0x3F000000#32),
    unary main_cst_3 main_v13 (broadcastInDim S16777216 ![] bcast_S_S16777216 : (⟨S_, .f32⟩ : BufTy).Contents (Elt F) → (⟨S16777216, .f32⟩ : BufTy).Contents (Elt F)),
    binary main_v12 main_v13 main_v14 (cmpf .olt : (⟨S16777216, .f32⟩ : BufTy).Contents (Elt F) → (⟨S16777216, .f32⟩ : BufTy).Contents (Elt F) → (⟨S16777216, .i1⟩ : BufTy).Contents (Elt F)),
    nullary main_cst_4 (constant S_ .f32 0x3F000000#32),
    unary main_cst_4 main_v15 (broadcastInDim S16777216 ![] bcast_S_S16777216 : (⟨S_, .f32⟩ : BufTy).Contents (Elt F) → (⟨S16777216, .f32⟩ : BufTy).Contents (Elt F)),
    binary main_v15 main_v11 main_v16 (mulf : (⟨S16777216, .f32⟩ : BufTy).Contents (Elt F) → (⟨S16777216, .f32⟩ : BufTy).Contents (Elt F) → (⟨S16777216, .f32⟩ : BufTy).Contents (Elt F)),
    binary main_v16 main_v11 main_v17 (mulf : (⟨S16777216, .f32⟩ : BufTy).Contents (Elt F) → (⟨S16777216, .f32⟩ : BufTy).Contents (Elt F) → (⟨S16777216, .f32⟩ : BufTy).Contents (Elt F)),
    nullary main_cst_5 (constant S_ .f32 0x3E800000#32),
    unary main_cst_5 main_v18 (broadcastInDim S16777216 ![] bcast_S_S16777216 : (⟨S_, .f32⟩ : BufTy).Contents (Elt F) → (⟨S16777216, .f32⟩ : BufTy).Contents (Elt F)),
    binary main_v12 main_v18 main_v19 (subf : (⟨S16777216, .f32⟩ : BufTy).Contents (Elt F) → (⟨S16777216, .f32⟩ : BufTy).Contents (Elt F) → (⟨S16777216, .f32⟩ : BufTy).Contents (Elt F)),
    nullary main_cst_6 (constant S_ .f32 0x3F000000#32),
    unary main_cst_6 main_v20 (broadcastInDim S16777216 ![] bcast_S_S16777216 : (⟨S_, .f32⟩ : BufTy).Contents (Elt F) → (⟨S16777216, .f32⟩ : BufTy).Contents (Elt F)),
    binary main_v20 main_v19 main_v21 (mulf : (⟨S16777216, .f32⟩ : BufTy).Contents (Elt F) → (⟨S16777216, .f32⟩ : BufTy).Contents (Elt F) → (⟨S16777216, .f32⟩ : BufTy).Contents (Elt F)),
    ternary main_v14 main_v17 main_v21 main_v22 (select : (⟨S16777216, .i1⟩ : BufTy).Contents (Elt F) → (⟨S16777216, .f32⟩ : BufTy).Contents (Elt F) → (⟨S16777216, .f32⟩ : BufTy).Contents (Elt F) → (⟨S16777216, .f32⟩ : BufTy).Contents (Elt F)),
    binary main_v22 main_v10 main_v23 (mulf : (⟨S16777216, .f32⟩ : BufTy).Contents (Elt F) → (⟨S16777216, .f32⟩ : BufTy).Contents (Elt F) → (⟨S16777216, .f32⟩ : BufTy).Contents (Elt F)),
    nullary main_cst_7 (constant S_ .f32 0x00000000#32),
    binary main_v23 main_cst_7 main_v24 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_8 (constant S_ .f32 0x4B800000#32),
    binary main_v24 main_cst_8 main_v25 (Host.divf : (⟨S_, .f32⟩ : BufTy).Contents (Elt F) → (⟨S_, .f32⟩ : BufTy).Contents (Elt F) → (⟨S_, .f32⟩ : BufTy).Contents (Elt F)) ]

set_option maxRecDepth 4096 in
/-- The program is that straight line: the three functions' bodies unfolded at their calls, and the
    sequencing reassociated. -/
theorem main_eq (c : Dev nD) : main (F := F) c = seq ops := by
  simp only [main, fn_round.body, fn_clip.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., binary_bufs_sub .., nullary_bufs_sub .., binary_bufs_sub .., nullary_bufs_sub .., binary_bufs_sub ..⟩

/-- From any memory with zero counters every weakly fair execution terminates, and every buffer ends at
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRunElem.lean ====
/-
  The reference's value as one term of its two arguments, and that term read at an index.

  `body x t` is the array the forty-two operations compose before the sum: the piecewise value of the
  difference between the prediction and the label, times the weight gathered from the four-entry table
  at the label's class word. Read at index i it is the piecewise element of the pair (x i, t i):
  every operation but the gather is elementwise or a broadcast of a scalar, and the gather — one
  collapsed axis, the start indices a column — reads the table at the start index of row i, taken as a
  signed integer and clamped into [0, 3]. `out x t` is the sum of `body x t` from zero, divided by the
  count; at its one index it is the quotient of zero plus the sum of the elements.
-/
import proofs.«125862_j80341658239294_2_alg».proof.Proof.Gen.ReferenceIdeal
import proofs.«125862_j80341658239294_2_alg».proof.Proof.Spec
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-! ## The composed term -/

/-- The label array as floats. -/
def labV (t : IVec S16777216 32) : FVec Ideal S16777216 .f32 := sitofp .f32 t

/-- The rounded label clipped to [0, 3] and converted to an integer. -/
def clipV (t : IVec S16777216 32) : IVec S16777216 32 :=
  fptosi 32 (minimumf (broadcastInDim S16777216 ![] bcast_S_S16777216 (sitofp (F := Ideal) .f32 (constantI S_ 32 3#32)))
    (maximumf (broadcastInDim S16777216 ![] bcast_S_S16777216 (sitofp (F := Ideal) .f32 (constantI S_ 32 0#32)))
      (Host.roundeven (labV t))))

/-- The class words: a negative one moved up by four. -/
def clsV (t : IVec S16777216 32) : IVec S16777216 32 :=
  select (cmpi .slt (clipV t) (broadcastInDim S16777216 ![] bcast_S_S16777216 (constantI S_ 32 0#32)))
    (addi (clipV t) (broadcastInDim S16777216 ![] bcast_S_S16777216 (constantI S_ 32 4#32))) (clipV t)

/-- The four-entry table. -/
def tblV : FVec Ideal S4 .f32 := fun i => FloatOps.ofBits .f32 (lit0 (S4.rowMajor i))

/-- The weights: the table gathered at the column of class words. -/
def wV (t : IVec S16777216 32) : FVec Ideal S16777216 .f32 :=
  Host.gather gather_S4_S16777216x1_S16777216_n_0_n_n_0_1_1 tblV
    (broadcastInDim S16777216x1 ![0] bcast_S16777216_S16777216x1_0 (clsV t))

/-- The differences between predictions and labels. -/
def dV (x : FVec Ideal S16777216 .f32) (t : IVec S16777216 32) : FVec Ideal S16777216 .f32 := subf x (labV t)

/-- Their absolute values. -/
def aV (x : FVec Ideal S16777216 .f32) (t : IVec S16777216 32) : FVec Ideal S16777216 .f32 := Host.absf (dV x t)

/-- The piecewise values: half the square where the absolute difference is below one half, half of
    (the absolute difference minus one quarter) elsewhere. -/
def pwV (x : FVec Ideal S16777216 .f32) (t : IVec S16777216 32) : FVec Ideal S16777216 .f32 :=
  select (cmpf .olt (aV x t) (broadcastInDim S16777216 ![] bcast_S_S16777216 (constant (F := Ideal) S_ .f32 0x3F000000#32)))
    (mulf (mulf (broadcastInDim S16777216 ![] bcast_S_S16777216 (constant (F := Ideal) S_ .f32 0x3F000000#32)) (dV x t)) (dV x t))
    (mulf (broadcastInDim S16777216 ![] bcast_S_S16777216 (constant (F := Ideal) S_ .f32 0x3F000000#32))
      (subf (aV x t) (broadcastInDim S16777216 ![] bcast_S_S16777216 (constant (F := Ideal) S_ .f32 0x3E800000#32))))

/-- The weighted piecewise values: what is summed. -/
def body (x : FVec Ideal S16777216 .f32) (t : IVec S16777216 32) : FVec Ideal S16777216 .f32 :=
  mulf (pwV x t) (wV t)

/-- The result: the sum from zero, divided by the count. -/
def out (x : FVec Ideal S16777216 .f32) (t : IVec S16777216 32) : FVec Ideal S_ .f32 :=
  Host.divf (Host.reduceAdd (F := Ideal) (body x t) (constant (F := Ideal) S_ .f32 0x00000000#32) reducesTo_S16777216_S_d0 h_S_)
    (constant (F := Ideal) S_ .f32 0x4B800000#32)

/-! ## The gather at an index -/

/-- Row i, column 0 of the column of start indices. -/
abbrev colIdx (j : S16777216.Idx) : S16777216x1.Idx :=
  fun a => match a with | ⟨0, _⟩ => ⟨(j 0).val, (j 0).isLt⟩ | ⟨1, _⟩ => ⟨0, Nat.one_pos⟩

/-- The gather at result index j: the table at the start index of row j, read signed and clamped into [0, 3]. -/
theorem gather_apply {α : Type} {w : Nat} (x : S4.Idx → α) (idx : IVec S16777216x1 w) (j : S16777216.Idx) :
    Host.gather gather_S4_S16777216x1_S16777216_n_0_n_n_0_1_1 x idx j
      = x (ix1 ⟨min (idx (colIdx j)).toInt.toNat 3, by omega⟩) := by
  unfold Host.gather
  congr 1
  funext a
  obtain rfl : a = 0 := Subsingleton.elim _ _
  refine Fin.ext ?_
  show gather_S4_S16777216x1_S16777216_n_0_n_n_0_1_1.start j idx 0
      + gather_S4_S16777216x1_S16777216_n_0_n_n_0_1_1.batchCoord j 0
      + gather_S4_S16777216x1_S16777216_n_0_n_n_0_1_1.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4_S16777216x1_S16777216_n_0_n_n_0_1_1.startIndexMap from List.mem_singleton.mpr rfl)]
  have hsi : gather_S4_S16777216x1_S16777216_n_0_n_n_0_1_1.siIdx j
      ⟨List.idxOf (0 : Fin 1) gather_S4_S16777216x1_S16777216_n_0_n_n_0_1_1.startIndexMap,
        List.idxOf_lt_length_iff.2 (List.mem_singleton.mpr rfl)⟩ = colIdx j := by
    funext b; refine Fin.ext ?_
    match b with
    | ⟨0, _⟩ => rfl
    | ⟨1, _⟩ => rfl
  rw [hsi]
  rfl

/-- The column of start indices at row j, column 0 is the array at j. -/
theorem column_apply {α : Type} (v : S16777216.Idx → α) (j : S16777216.Idx) :
    broadcastInDim S16777216x1 ![0] bcast_S16777216_S16777216x1_0 v (colIdx j) = v j := by
  refine broadcastInDim_apply ![0] bcast_S16777216_S16777216x1_0 v (colIdx j) j ?_
  intro a
  obtain rfl : a = 0 := Subsingleton.elim _ _
  rfl

/-- The table at entry r is the r-th weight. -/
theorem tblV_apply (r : Fin 4) : tblV (ix1 r) = Ideal.ofBits .f32 (Cert.Huber.lut r) := by
  have h : S4.rowMajor (ix1 r) = r := Fin.ext (Shape.rowMajor_val_one (ix1 r))
  show Ideal.ofBits .f32 (lit0 (S4.rowMajor (ix1 r))) = _
  rw [h]
  match r with
  | ⟨0, _⟩ => rfl
  | ⟨1, _⟩ => rfl
  | ⟨2, _⟩ => rfl
  | ⟨3, _⟩ => rfl

/-! ## The elements -/

/-- The class words at an index. -/
theorem clsV_apply (t : IVec S16777216 32) (i : S16777216.Idx) : clsV t i = Cert.Huber.classWord (t i) := rfl

/-- The weight at an index is the table's entry at the label's row. -/
theorem wV_apply (t : IVec S16777216 32) (i : S16777216.Idx) :
    wV t i = Ideal.ofBits .f32 (Cert.Huber.lut (Cert.Huber.lutRow (t i))) := by
  unfold wV
  rw [gather_apply]
  refine (congrArg (fun r : Fin 4 => tblV (ix1 r)) (Fin.ext ?_)).trans (tblV_apply (Cert.Huber.lutRow (t i)))
  show min (broadcastInDim S16777216x1 ![0] bcast_S16777216_S16777216x1_0 (clsV t) (colIdx i)).toInt.toNat 3
    = min (Cert.Huber.classWord (t i)).toInt.toNat 3
  rw [column_apply, clsV_apply]

/-- The piecewise value at an index. -/
theorem pwV_apply (x : FVec Ideal S16777216 .f32) (t : IVec S16777216 32) (i : S16777216.Idx) :
    pwV x t i = Scalar.select (Ideal.cmp .olt (max (x i - Cert.Huber.lab (t i)) (-(x i - Cert.Huber.lab (t i)))) (Ideal.ofBits .f32 0x3F000000#32))
      ((Ideal.ofBits .f32 0x3F000000#32 * (x i - Cert.Huber.lab (t i))) * (x i - Cert.Huber.lab (t i)))
      (Ideal.ofBits .f32 0x3F000000#32 * (max (x i - Cert.Huber.lab (t i)) (-(x i - Cert.Huber.lab (t i))) - Ideal.ofBits .f32 0x3E800000#32)) := rfl

/-- THE ELEMENT: the composed array at index i is the piecewise element of the i-th prediction and label. -/
theorem body_apply (x : FVec Ideal S16777216 .f32) (t : IVec S16777216 32) (i : S16777216.Idx) :
    body x t i = Cert.Huber.elemR (x i) (t i) := by
  show pwV x t i * wV t i = _
  rw [pwV_apply, wV_apply]
  rfl

/-- THE RESULT: zero plus the sum of the elements, divided by the count. -/
theorem out_eq (x : FVec Ideal S16777216 .f32) (t : IVec S16777216 32) :
    out x t = fun _ => Ideal.div (Ideal.ofBits .f32 0x00000000#32 + ∑ i : S16777216.Idx, Cert.Huber.elemR (x i) (t i))
      (Ideal.ofBits .f32 0x4B800000#32) := by
  funext j
  show Ideal.div (Ideal.hostReduceAdd reducesTo_S16777216_S_d0 (body x t) (Ideal.ofBits .f32 0x00000000#32) j)
      (Ideal.ofBits .f32 0x4B800000#32) = _
  rw [Ideal.hostReduceAdd_total reducesTo_S16777216_S_d0 (fun b => b.elim0)]
  exact congrArg (fun s => Ideal.div (Ideal.ofBits .f32 0x00000000#32 + s) (Ideal.ofBits .f32 0x4B800000#32))
    (Finset.sum_congr rfl fun i _ => body_apply x t i)

end Cert.ReferenceIdeal.RefValue

end
-- ==== Proof.RefRun.lean ====
/-
  The reference's run read down to one sum: from any memory with zero counters every weakly fair
  execution terminates, the result buffer holds zero plus the sum over all positions of the piecewise
  element of the prediction and the label there, divided by the count, and the two argument buffers
  are unchanged.

  The fold of the forty-two operations at the result buffer is the composed term `out` of the two
  argument buffers' launch contents (each operation's result read at its own buffer, every other
  buffer left as it was), and `out` is that quotient by the elementwise reading.
-/
import proofs.«125862_j80341658239294_2_alg».proof.Proof.RefRunOps
import proofs.«125862_j80341658239294_2_alg».proof.Proof.RefRunElem

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.gather Host.reduceAdd in
set_option maxRecDepth 8192 in
/-- The fold at the result buffer is the composed term of the two arguments' contents. -/
theorem after_v25 (V : Valuation τ sig (Elt Ideal)) :
    after (ops (F := Ideal)) V (main_v25 : DevRef τ sig)
      = out (V (main_arg0 : DevRef τ sig)) (V (main_arg1 : DevRef τ sig)) := by
  after_results_simp
  rfl

/-- No operation writes the first argument. -/
theorem after_arg0 (V : Valuation τ sig (Elt Ideal)) :
    after (ops (F := Ideal)) V (main_arg0 : DevRef τ sig) = V (main_arg0 : DevRef τ sig) := by
  after_results_simp

/-- No operation writes the second argument. -/
theorem after_arg1 (V : Valuation τ sig (Elt Ideal)) :
    after (ops (F := Ideal)) V (main_arg1 : DevRef τ sig) = V (main_arg1 : DevRef τ sig) := by
  after_results_simp

/-- THE RUN: the result is zero plus the sum of the piecewise elements, divided by the count; the
    arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25)
          = (fun _ => Ideal.div (Ideal.ofBits .f32 0x00000000#32
              + ∑ i : S16777216.Idx, Cert.Huber.elemR (m ((c.tc : Thread nD τ).loc main_arg0) i) (m ((c.tc : Thread nD τ).loc main_arg1) i))
            (Ideal.ofBits .f32 0x4B800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c =>
      ⟨((h c main_v25).trans (after_v25 (launchContents m c))).trans
          (out_eq (m ((c.tc : Thread nD τ).loc main_arg0)) (m ((c.tc : Thread nD τ).loc main_arg1))),
        (h c main_arg0).trans (after_arg0 (launchContents m c)),
        (h c main_arg1).trans (after_arg1 (launchContents m c))⟩)
    (run_main m ρ)

end Cert.ReferenceIdeal.RefValue

end
-- ==== Proof.lean ====
/-
  A weighted Huber mean, computed two ways, is one extended real.

  The inputs are 16777216 predictions p and 16777216 integer labels y. Per entry, with d = p - y and
  a = |d|: one program forms m = min(a, 1/2) and the value m * (a - m/2), the other the piecewise
  value d*d/2 where a < 1/2 and (a - 1/4)/2 elsewhere; these agree for every extended real p
  (where a < 1/2 the difference d is a real number and both are d*d/2; elsewhere both are
  1/2 * (a - 1/4)). One program weights the entry by comparing the label clipped to [0, 3] against
  3/2, 1/2 and 5/2, the other by a four-entry table at the label rounded, clipped and converted to an
  integer; for an integer label both give the weight of class min(3, max(0, y)).

  One program sums the weighted entries block by block: sixteen blocks of 8192 rows of 128 lanes,
  each reduced over lanes and then rows, accumulated in two runs of eight from zero; the two
  totals are added and divided by 2^24. The other sums all entries at once from zero and divides by
  2^24. The blocks partition the flat positions ((t * 8192 + r) * 128 + l), and addition on the
  extended reals is commutative and associative, so the two quotients have the same numerator.

  Each program terminates without a fault and leaves its arguments unchanged.
-/
import proofs.«125862_j80341658239294_2_alg».proof.Defs
import proofs.«125862_j80341658239294_2_alg».proof.Proof.Gen.Kernel
import proofs.«125862_j80341658239294_2_alg».proof.Proof.Gen.Kernel.Skeleton
import proofs.«125862_j80341658239294_2_alg».proof.Proof.Gen.Kernel.Launch
import proofs.«125862_j80341658239294_2_alg».proof.Proof.Gen.Kernel.Points
import proofs.«125862_j80341658239294_2_alg».proof.Proof.Gen.Kernel.Frame
import proofs.«125862_j80341658239294_2_alg».proof.Proof.Gen.KernelIdeal
import proofs.«125862_j80341658239294_2_alg».proof.Proof.Gen.KernelIdeal.Skeleton
import proofs.«125862_j80341658239294_2_alg».proof.Proof.Gen.KernelIdeal.Launch
import proofs.«125862_j80341658239294_2_alg».proof.Proof.Gen.KernelIdeal.Points
import proofs.«125862_j80341658239294_2_alg».proof.Proof.Gen.KernelIdeal.Frame
import proofs.«125862_j80341658239294_2_alg».proof.Proof.Gen.ReferenceIdeal
import proofs.«125862_j80341658239294_2_alg».proof.Proof.Gen.Pre_finite_inputs
import proofs.«125862_j80341658239294_2_alg».proof.Proof.KFinal
import proofs.«125862_j80341658239294_2_alg».proof.Proof.Bridge
import proofs.«125862_j80341658239294_2_alg».proof.Proof.RefRun
import Idealize.ShloMosaic.Adequacy
import Idealize.ShloMosaic.Init

noncomputable section

namespace Cert.Proof

open Idealize.ShloMosaic Idealize.SL.Sem

/-- The word-level program terminates and keeps its arguments. -/
theorem frame_k : Cert.frame_Kernel := fun m ρ _ => Cert.Kernel.Gen.frame m ρ

/-- So does the program read over the extended reals. -/
theorem frame_ki : Cert.frame_KernelIdeal := fun m ρ _ => Cert.KernelIdeal.Gen.frame m ρ

/-- So does the one-sum program: its run, with the result forgotten. -/
theorem frame_ri : Cert.frame_ReferenceIdeal := fun m ρ _ =>
  (θ_run Cert.ReferenceIdeal.defs _ _).mono (fun _ h c => (h c).2) (Cert.ReferenceIdeal.RefValue.run m ρ)

/-- Nothing was rewritten between the word-level program and its exact reading. -/
theorem preserves : Cert.preserves_Kernel_KernelIdeal := trivial

/-- From arguments that agree, the blockwise program ends at (total of blocks 0..7 + total of blocks 8..15) / 2^24
    and the one-sum program at (0 + the sum over all positions) / 2^24: the same extended real. -/
theorem algebraic : Cert.algebraic_KernelIdeal_ReferenceIdeal := by
  intro m ρ m' ρ' _ hagree
  refine ⟨fun c => fun _ => Ideal.div (Cert.KernelIdeal.KA.accAt m c 7 + Cert.KernelIdeal.KA.accAt m c 15) (Ideal.ofBits .f32 0x4B800000#32),
    Cert.KernelIdeal.KF.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact funext fun _ => congrArg (fun z => Ideal.div z (Ideal.ofBits .f32 0x4B800000#32)) (Cert.KernelIdeal.Bridge.total_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
